-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S2x16000000 : Shape := ⟨2, ![2, 16000000]⟩
abbrev S16000000x1 : Shape := ⟨2, ![16000000, 1]⟩
abbrev S32x256 : Shape := ⟨2, ![32, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S16000000x1 : S_.BroadcastsInDim S16000000x1 (![] : Fin 0 → Fin S16000000x1.rank)
  reducesTo_S16000000x1_S_d0_1 : S16000000x1.ReducesTo [0, 1] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256 .f32) (main_arg9 : FVec F S256x1 .f32) (main_arg10 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256 .f32) (main_arg9 : FVec F S256x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S500000x3 .f32) (main_arg1 : IVec S2x16000000 32) (main_arg2 : FVec F S16000000x1 .f32) (main_arg3 : FVec F S32x256 .f32) (main_arg4 : FVec F S256 .f32) (main_arg5 : FVec F S256x256 .f32) (main_arg6 : FVec F S256 .f32) (main_arg7 : FVec F S256x256 .f32) (main_arg8 : FVec F S256 .f32) (main_arg9 : FVec F S256x1 .f32) (main_arg10 : FVec F S1 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S16000000x1 .f32 := Host.absf main_arg2
  let main_cst_0 : FVec F S_ .f32 := constant S_ .f32 0x7F800000#32
  let main_v5 : FVec F S16000000x1 .f32 := broadcastInDim S16000000x1 ![] bcast_S_S16000000x1 main_cst_0
  let main_v6 : IVec S16000000x1 1 := cmpf .olt main_v4 main_v5
  let main_c_1 : IVec S_ 1 := constantI S_ 1 1#1
  let main_v7 : IVec S_ 1 := (fun x v => Host.reduce IntOp.andi x v reducesTo_S16000000x1_S_d0_1 h_S_) main_v6 main_c_1
  let main_v8 : IVec S_ 1 := andi main_v3 main_v7
  let main_v9 : FVec F S32x256 .f32 := Host.absf main_arg3
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S500000x3 : Shape := ⟨2, ![500000, 3]⟩
abbrev S2x16000000 : Shape := ⟨2, ![2, 16000000]⟩
abbrev S16000000x1 : Shape := ⟨2, ![16000000, 1]⟩
abbrev S32x256 : Shape := ⟨2, ![32, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S500000x32 : Shape := ⟨2, ![500000, 32]⟩
abbrev S1x256 : Shape := ⟨2, ![1, 256]⟩
abbrev S1x1 : Shape := ⟨2, ![1, 1]⟩
abbrev S125x1x4000 : Shape := ⟨3, ![125, 1, 4000]⟩
abbrev S4000x32 : Shape := ⟨2, ![4000, 32]⟩
abbrev S1x1x4000 : Shape := ⟨3, ![1, 1, 4000]⟩
abbrev S4000x256 : Shape := ⟨2, ![4000, 256]⟩
abbrev S4000 : Shape := ⟨1, ![4000]⟩
abbrev S4000x1 : Shape := ⟨2, ![4000, 1]⟩
abbrev S500000 : Shape := ⟨1, ![500000]⟩

abbrev nBuf : Space → Nat
  | .hbm => 22
  | .vmem => 12
  | .smem => 0
  | _ => 0

abbrev bufTy : (tb : Table) → Fin (tcTables nBuf tb) → BufTy
  | .hbm, ⟨0, _⟩ => ⟨S500000x3, .f32⟩
  | .hbm, ⟨1, _⟩ => ⟨S2x16000000, .i32⟩
  | .hbm, ⟨2, _⟩ => ⟨S16000000x1, .f32⟩
  | .hbm, ⟨3, _⟩ => ⟨S32x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S500000x32, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S32x256, .bf16⟩
  | .hbm, ⟨17, _⟩ => ⟨S256x256, .bf16⟩
  | .hbm, ⟨18, _⟩ => ⟨S256x256, .bf16⟩
  | .hbm, ⟨19, _⟩ => ⟨S1x256, .f32⟩
  | .hbm, ⟨20, _⟩ => ⟨S125x1x4000, .f32⟩
  | .hbm, ⟨21, _⟩ => ⟨S500000, .f32⟩
  | .local _ .vmem, ⟨0, _⟩ => ⟨S4000x32, .f32⟩
  | .local _ .vmem, ⟨1, _⟩ => ⟨S4000x32, .f32⟩
  | .local _ .vmem, ⟨2, _⟩ => ⟨S32x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S1x1x4000, .f32⟩
  | .local _ .vmem, ⟨11, _⟩ => ⟨S1x1x4000, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x4000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16000000x1_S500000x32 : S16000000x1.ShapeCasts S500000x32
  shapeCasts_S256_S1x256 : S256.ShapeCasts S1x256
  shapeCasts_S1_S1x1 : S1.ShapeCasts S1x1
  bitsLt_bf16_f32 : FTy.bits .bf16 < FTy.bits .f32
  shapeCasts_S256x1_S1x256 : S256x1.ShapeCasts S1x256
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S4000x256_S4000 : S4000x256.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S4000x1_S4000 : S4000x1.ShapeCasts S4000
  shapeCasts_S4000_S1x1x4000 : S4000.ShapeCasts S1x1x4000
  inb_S1x1x4000_S1x1x4000_0_0_0 : ∀ a, (![0, 0, 0] : Fin 3 → Nat) a + S1x1x4000.size a ≤ S1x1x4000.size a
  h_S1x1x4000 : 0 < S1x1x4000.numel
  shapeCasts_S125x1x4000_S500000 : S125x1x4000.ShapeCasts S500000
  dot_S4000x32_S32x256_S4000x256_1_0_0_1_n_n_wf : DotDims.WF S4000x32 S32x256 S4000x256 [1] [0] [0] [1] [] []
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S500000x32.size a
  hwx0_0 : ∀ i : grid0.Coords, EltTy.bits .f32 = 32 ∨ (Rect.block (s := S500000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .bf16 = 32 ∨ (Rect.block (s := S32x256) S32x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x4000.size a ≤ S125x1x4000.size a
  hwx0_9 : ∀ i : grid0.Coords, EltTy.bits .f32 = 32 ∨ (Rect.block (s := S125x1x4000) S1x1x4000.size (cc0_transform_9 i) (hinb0_9 i)).WholeWords (EltTy.packing .f32)

variable [Facts₀]

def dot_S4000x32_S32x256_S4000x256_1_0_0_1_n_n : DotDims S4000x32 S32x256 S4000x256 where
  lhsContracting := [1]
  rhsContracting := [0]
  lhsNonContracting := [0]
  rhsNonContracting := [1]
  lhsBatch := []
  rhsBatch := []
  wf := dot_S4000x32_S32x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1x4000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x3 : Shape := ⟨2, ![500000, 3]⟩
abbrev S2x16000000 : Shape := ⟨2, ![2, 16000000]⟩
abbrev S16000000x1 : Shape := ⟨2, ![16000000, 1]⟩
abbrev S32x256 : Shape := ⟨2, ![32, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S500000x32 : Shape := ⟨2, ![500000, 32]⟩
abbrev S500000x256 : Shape := ⟨2, ![500000, 256]⟩
abbrev S1x256 : Shape := ⟨2, ![1, 256]⟩
abbrev S500000x1 : Shape := ⟨2, ![500000, 1]⟩
abbrev S1x1 : Shape := ⟨2, ![1, 1]⟩
abbrev S_ : Shape := ⟨0, ![]⟩
abbrev S500000 : Shape := ⟨1, ![500000]⟩

abbrev nBuf : Space → Nat
  | .hbm => 48
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S2x16000000, .i32⟩
  | .hbm, ⟨2, _⟩ => ⟨S16000000x1, .f32⟩
  | .hbm, ⟨3, _⟩ => ⟨S32x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S500000x32, .f32⟩
  | .hbm, ⟨12, _⟩ => ⟨S500000x256, .f32⟩
  | .hbm, ⟨13, _⟩ => ⟨S1x256, .f32⟩
  | .hbm, ⟨14, _⟩ => ⟨S500000x256, .f32⟩
  | .hbm, ⟨15, _⟩ => ⟨S500000x256, .f32⟩
  | .hbm, ⟨16, _⟩ => ⟨S500000x256, .f32⟩
  | .hbm, ⟨17, _⟩ => ⟨S500000x256, .f32⟩
  | .hbm, ⟨18, _⟩ => ⟨S1x256, .f32⟩
  | .hbm, ⟨19, _⟩ => ⟨S500000x256, .f32⟩
  | .hbm, ⟨20, _⟩ => ⟨S500000x256, .f32⟩
  | .hbm, ⟨21, _⟩ => ⟨S500000x256, .f32⟩
  | .hbm, ⟨22, _⟩ => ⟨S500000x256, .f32⟩
  | .hbm, ⟨23, _⟩ => ⟨S1x256, .f32⟩
  | .hbm, ⟨24, _⟩ => ⟨S500000x256, .f32⟩
  | .hbm, ⟨25, _⟩ => ⟨S500000x256, .f32⟩
  | .hbm, ⟨26, _⟩ => ⟨S500000x256, .f32⟩
  | .hbm, ⟨27, _⟩ => ⟨S500000x1, .f32⟩
  | .hbm, ⟨28, _⟩ => ⟨S1x1, .f32⟩
  | .hbm, ⟨29, _⟩ => ⟨S500000x1, .f32⟩
  | .hbm, ⟨30, _⟩ => ⟨S500000x1, .f32⟩
  | .hbm, ⟨31, _⟩ => ⟨S500000x1, .f32⟩
  | .hbm, ⟨32, _⟩ => ⟨S_, .f32⟩
  | .hbm, ⟨33, _⟩ => ⟨S500000x1, .f32⟩
  | .hbm, ⟨34, _⟩ => ⟨S500000x1, .f32⟩
  | .hbm, ⟨35, _⟩ => ⟨S500000x1, .f32⟩
  | .hbm, ⟨36, _⟩ => ⟨S500000x1, .f32⟩
  | .hbm, ⟨37, _⟩ => ⟨S500000x1, .i1⟩
  | .hbm, ⟨38, _⟩ => ⟨S500000x1, .f32⟩
  | .hbm, ⟨39, _⟩ => ⟨S500000x1, .f32⟩
  | .hbm, ⟨40, _⟩ => ⟨S500000x1, .f32⟩
  | .hbm, ⟨41, _⟩ => ⟨S500000x1, .f32⟩
  | .hbm, ⟨42, _⟩ => ⟨S500000x1, .f32⟩
  | .hbm, ⟨43, _⟩ => ⟨S500000x1, .f32⟩
  | .hbm, ⟨44, _⟩ => ⟨S500000x1, .f32⟩
  | .hbm, ⟨45, _⟩ => ⟨S500000x1, .f32⟩
  | .hbm, ⟨46, _⟩ => ⟨S500000x1, .f32⟩
  | .hbm, ⟨47, _⟩ => ⟨S500000, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v20 : Ref sig .tc := ⟨.hbm, 46, rfl⟩
abbrev main_v21 : Ref sig .tc := ⟨.hbm, 47, rfl⟩

abbrev nD : Nat := 1
abbrev τ : Topo := Topo.v7x

variable {F : FTy → Type} [FloatOps F]

class Facts₀ : Prop where
  shapeCasts_S16000000x1_S500000x32 : S16000000x1.ShapeCasts S500000x32
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  dot_S500000x32_S32x256_S500000x256_1_0_0_1_n_n_wf : DotDims.WF S500000x32 S32x256 S500000x256 [1] [0] [0] [1] [] []
  dot_S500000x256_S256x256_S500000x256_1_0_0_1_n_n_wf : DotDims.WF S500000x256 S256x256 S500000x256 [1] [0] [0] [1] [] []
  dot_S500000x256_S256x1_S500000x1_1_0_0_1_n_n_wf : DotDims.WF S500000x256 S256x1 S500000x1 [1] [0] [0] [1] [] []

variable [Facts₀]

def dot_S500000x32_S32x256_S500000x256_1_0_0_1_n_n : DotDims S500000x32 S32x256 S500000x256 where
  lhsContracting := [1]
  rhsContracting := [0]
  lhsNonContracting := [0]
  rhsNonContracting := [1]
  lhsBatch := []
  rhsBatch := []
  wf := dot_S500000x32_S32x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«141119_j89137751261683_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«141119_j89137751261683_2_alg».proof.Proof.LibPlainDot
import proofs.«141119_j89137751261683_2_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowLocal.lean ====
/-
  Dense layers act row by row.

  Say that an array `a'` of `B` rows holds rows of an array `a` of `M` rows along a map `r : Fin B → Fin M` when row `p` of
  `a'` is row `r p` of `a`, entry by entry.  A projection `x · w`, the addition of a bias row, and the clamp at zero each
  compute row `p` of their result from row `p` of their operand alone, so each carries this relation from its operand to
  its result.  This is what lets a computation done block of rows by block of rows be compared with the same computation
  done on the whole array: the block's rows are rows of the whole along `p ↦ offset + p`.
-/
import proofs.«141119_j89137751261683_2_alg».proof.Proof.LibDenseLayers

noncomputable section

namespace Cert.Layers

open Idealize.ShloMosaic Idealize.ShloMosaic.ValueIdx

variable {B M K N : Nat}

/-- Row `p` of `a'` is row `r p` of `a`. -/
def RowsOf (r : Fin B → Fin M) (a' : (⟨2, ![B, K]⟩ : Shape).Idx → EReal) (a : (⟨2, ![M, K]⟩ : Shape).Idx → EReal) : Prop :=
  ∀ (p : Fin B) (k : Fin K), a' (ix2 p k) = a (ix2 (r p) k)

/-- The projection of rows is the rows of the projection: entry `(p, q)` sums over row `p` only. -/
theorem RowsOf.project {r : Fin B → Fin M} {a' : (⟨2, ![B, K]⟩ : Shape).Idx → EReal} {a : (⟨2, ![M, K]⟩ : Shape).Idx → EReal}
    (h : RowsOf r a' a) (w : (⟨2, ![K, N]⟩ : Shape).Idx → EReal) : RowsOf r (project a' w) (project a w) := by
  intro p q
  rw [project_apply, project_apply]
  exact Finset.sum_congr rfl fun k _ => by rw [h p k]

/-- Adding one bias row to every row commutes with taking rows. -/
theorem RowsOf.addRow {r : Fin B → Fin M} {a' : (⟨2, ![B, N]⟩ : Shape).Idx → EReal} {a : (⟨2, ![M, N]⟩ : Shape).Idx → EReal}
    (h : RowsOf r a' a) (b : (⟨2, ![1, N]⟩ : Shape).Idx → EReal) : RowsOf r (addRow a' b) (addRow a b) := by
  intro p q
  show a' (ix2 p q) + b (ix2 (0 : Fin 1) q) = a (ix2 (r p) q) + b (ix2 (0 : Fin 1) q)
  rw [h p q]

/-- So does adding the bias row and clamping at zero. -/
theorem RowsOf.addRowClamp {r : Fin B → Fin M} {a' : (⟨2, ![B, N]⟩ : Shape).Idx → EReal} {a : (⟨2, ![M, N]⟩ : Shape).Idx → EReal}
    (h : RowsOf r a' a) (b : (⟨2, ![1, N]⟩ : Shape).Idx → EReal) : RowsOf r (addRowClamp a' b) (addRowClamp a b) := by
  intro p q
  show max (a' (ix2 p q) + b (ix2 (0 : Fin 1) q)) 0 = max (a (ix2 (r p) q) + b (ix2 (0 : Fin 1) q)) 0
  rw [h p q]

end Cert.Layers

end
-- ==== Proof.LibTanhLayer.lean ====
/-
  A dense layer under `tanh`, as an index-by-index function over the extended reals, and its two spellings.

  `hidden x w b` is `tanh (x · w + b)` entry by entry: the projection of the rows of `x`, the bias row added to every
  row, `tanh` of each entry.  It computes row `p` of its result from row `p` of `x` alone.  A kernel spells it as a
  matrix product into a zero accumulator plus the broadcast bias row under `tanh`; a host program as a `dot_general`
  plus the bias vector broadcast to a row and then over all rows, under `tanh`.  Both are `hidden`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«141119_j89137751261683_2_alg».proof.Proof.LibDenseLayers
import proofs.«141119_j89137751261683_2_alg».proof.Proof.LibRowLocal
import proofs.«141119_j89137751261683_2_alg».proof.Proof.LibKernelDense

noncomputable section

namespace Cert.Mlp

open Idealize.ShloMosaic Idealize.ShloMosaic.ValueIdx Cert.Layers

variable {B M K N : Nat}

/-- One hidden layer: `tanh` of the projected rows plus the bias row, entry by entry. -/
def hidden (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => Ideal.tanh (addRow (project x w) b i)

theorem hidden_apply (x : (⟨2, ![M, K]⟩ : Shape).Idx → EReal) (w : (⟨2, ![K, N]⟩ : Shape).Idx → EReal)
    (b : (⟨2, ![1, N]⟩ : Shape).Idx → EReal) (i : (⟨2, ![M, N]⟩ : Shape).Idx) :
    hidden x w b i = Ideal.tanh (addRow (project x w) b i) := rfl

/-- A hidden layer acts row by row. -/
theorem rowsOf_hidden {r : Fin B → Fin M} {a' : (⟨2, ![B, K]⟩ : Shape).Idx → EReal} {a : (⟨2, ![M, K]⟩ : Shape).Idx → EReal}
    (h : RowsOf r a' a) (w : (⟨2, ![K, N]⟩ : Shape).Idx → EReal) (b : (⟨2, ![1, N]⟩ : Shape).Idx → EReal) :
    RowsOf r (hidden a' w b) (hidden a w b) := by
  intro p q
  show Ideal.tanh (addRow (project a' w) b (ix2 p q)) = Ideal.tanh (addRow (project a w) b (ix2 (r p) q))
  rw [(h.project w).addRow b p q]

/-- A kernel's dense layer under `tanh` is the layer function: the product into the zero accumulator plus the broadcast
    bias row is the projection plus the bias row, and `tanh` acts entry by entry. -/
theorem hidden_of_ops {M K N : Nat} {φ₁ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ .bf16) (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) :
    tanh (addf (matmul d none x (shapeCast ⟨2, ![K, N]⟩ w hw) (constant ⟨2, ![M, N]⟩ .f32 0x00000000#32))
        (broadcastTo ⟨2, ![M, N]⟩ (shapeCast ⟨2, ![1, N]⟩ b hb) hbc))
      = hidden x w b := by
  rw [shapeCast_self, shapeCast_self, Cert.Lib.matmul_bias_eq_addRow d hd none x w b hbc]
  rfl

/-- The host's hidden layer is the layer function, as whole arrays: the product with ordinary dimension numbers is the
    projection, the twice-broadcast bias vector added is the bias row added, and `tanh` acts entry by entry. -/
theorem hostLayer_eq_hidden {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    Host.tanh (addf (Host.dotGeneral d none x w)
        (broadcastInDim ⟨2, ![M, N]⟩ ![0, 1] h2 (broadcastInDim ⟨2, ![1, N]⟩ ![1] h1 b)))
      = hidden x w (shapeCast ⟨2, ![1, N]⟩ b hc) := by
  rw [dotGeneral_eq_project d hd none x w, addf_bias_eq_addRow (project x w) b h1 h2 hc]
  rfl

end Cert.Mlp

end
-- ==== Proof.LibLogSigmoid.lean ====
/-
  `log σ` over the extended reals in the softplus form array programs spell it, and its two spellings.

  `log σ z = -softplus (-z)` with `softplus x = max x 0 + log (1 + exp (-|x - 0|))`, guarded by a select that takes
  `x + 0` instead where `x - 0` differs from itself (the test for "not a number").  No extended real differs from
  itself, so the guard never fires; a kernel writes every negation as a subtraction from zero, which is the same number.
-/
import Idealize.ShloMosaic.PureOps.Ideal
import Idealize.ShloMosaic.Lib.ValueIdx

noncomputable section

namespace Cert.Mlp

open Idealize.ShloMosaic Idealize.ShloMosaic.ValueIdx

/-- `log σ z` in the softplus form both sources spell. -/
def logSigmoid (z : EReal) : EReal :=
  -(max (-z) 0 + Ideal.log1p (Ideal.exp (-(max (-z - 0) (-(-z - 0))))))

/-- No extended real differs from itself, so the sources' test for "not a number" never fires. -/
theorem cmp_one_self (x : EReal) : Ideal.cmp .one x x = 0#1 := by
  simp [Ideal.cmp]

theorem cmp_une_self (x : EReal) : Ideal.cmp .une x x = 0#1 := by
  simp [Ideal.cmp]

/-- The kernel's spelling: every negation is a subtraction from zero, and the guarded branch is never taken. -/
theorem logSigmoid_of_sub (z : EReal) :
    (0 : EReal) - Scalar.select (Ideal.cmp .one ((0 - z) - 0) ((0 - z) - 0)) ((0 - z) + 0)
        (max (0 - z) 0 + Ideal.log1p (Ideal.exp (0 - max ((0 - z) - 0) (-((0 - z) - 0)))))
      = logSigmoid z := by
  rw [cmp_one_self, select_zero]
  simp only [zero_sub]
  rfl

/-- The host's spelling: negations as such, the guarded branch never taken. -/
theorem logSigmoid_of_neg (z : EReal) :
    -(Scalar.select (Ideal.cmp .une (-z - 0) (-z - 0)) (-z + 0)
        (max (-z) 0 + Ideal.log1p (Ideal.exp (-(max (-z - 0) (-(-z - 0)))))))
      = logSigmoid z := by
  rw [cmp_une_self, select_zero]
  rfl

end Cert.Mlp

end
-- ==== Proof.Spec.lean ====
/-
  The function both programs compute, over the extended reals.

  A node's `K` incoming edge attributes form one row of a matrix `g`.  Three hidden layers map a row `x` to
  `tanh (x · W + b)`, entry by entry; a last layer maps the resulting row `h` to the single number `h · W4 + b4` (the
  node's logit); and the node's result is `log σ` of its logit, which both sources spell in the softplus form
  `-(max (-z) 0 + log (1 + exp (-|(-z) - 0|)))`.

  Every layer computes row `p` of its result from row `p` of its operand alone; so a block of rows of the input gives
  the same block of rows of the logits.
-/
import Idealize.ShloMosaic.PureOps.Ideal
import Idealize.ShloMosaic.Lib.ValueIdx
import proofs.«141119_j89137751261683_2_alg».proof.Proof.LibDenseLayers
import proofs.«141119_j89137751261683_2_alg».proof.Proof.LibRowLocal
import proofs.«141119_j89137751261683_2_alg».proof.Proof.LibTanhLayer
import proofs.«141119_j89137751261683_2_alg».proof.Proof.LibLogSigmoid

noncomputable section

namespace Cert.Mlp

open Idealize.ShloMosaic Idealize.ShloMosaic.ValueIdx Cert.Layers

variable {B M K N : Nat}

/-- The logits: three hidden layers, then the projection to one column plus its bias. -/
def logits (g : (⟨2, ![M, K]⟩ : Shape).Idx → EReal)
    (W1 : (⟨2, ![K, N]⟩ : Shape).Idx → EReal) (b1 : (⟨2, ![1, N]⟩ : Shape).Idx → EReal)
    (W2 : (⟨2, ![N, N]⟩ : Shape).Idx → EReal) (b2 : (⟨2, ![1, N]⟩ : Shape).Idx → EReal)
    (W3 : (⟨2, ![N, N]⟩ : Shape).Idx → EReal) (b3 : (⟨2, ![1, N]⟩ : Shape).Idx → EReal)
    (W4 : (⟨2, ![N, 1]⟩ : Shape).Idx → EReal) (b4 : (⟨2, ![1, 1]⟩ : Shape).Idx → EReal) :
    (⟨2, ![M, 1]⟩ : Shape).Idx → EReal :=
  addRow (project (hidden (hidden (hidden g W1 b1) W2 b2) W3 b3) W4) b4

/-- The logits of a block of rows are that block of rows of the logits. -/
theorem rowsOf_logits {r : Fin B → Fin M} {g' : (⟨2, ![B, K]⟩ : Shape).Idx → EReal} {g : (⟨2, ![M, K]⟩ : Shape).Idx → EReal}
    (h : RowsOf r g' g)
    (W1 : (⟨2, ![K, N]⟩ : Shape).Idx → EReal) (b1 : (⟨2, ![1, N]⟩ : Shape).Idx → EReal)
    (W2 : (⟨2, ![N, N]⟩ : Shape).Idx → EReal) (b2 : (⟨2, ![1, N]⟩ : Shape).Idx → EReal)
    (W3 : (⟨2, ![N, N]⟩ : Shape).Idx → EReal) (b3 : (⟨2, ![1, N]⟩ : Shape).Idx → EReal)
    (W4 : (⟨2, ![N, 1]⟩ : Shape).Idx → EReal) (b4 : (⟨2, ![1, 1]⟩ : Shape).Idx → EReal) :
    RowsOf r (logits g' W1 b1 W2 b2 W3 b3 W4 b4) (logits g W1 b1 W2 b2 W3 b3 W4 b4) :=
  ((rowsOf_hidden (rowsOf_hidden (rowsOf_hidden h W1 b1) W2 b2) W3 b3).project W4).addRow b4

/-- One number per node: `log σ` of its logit. -/
def result (g : (⟨2, ![M, K]⟩ : Shape).Idx → EReal)
    (W1 : (⟨2, ![K, N]⟩ : Shape).Idx → EReal) (b1 : (⟨2, ![1, N]⟩ : Shape).Idx → EReal)
    (W2 : (⟨2, ![N, N]⟩ : Shape).Idx → EReal) (b2 : (⟨2, ![1, N]⟩ : Shape).Idx → EReal)
    (W3 : (⟨2, ![N, N]⟩ : Shape).Idx → EReal) (b3 : (⟨2, ![1, N]⟩ : Shape).Idx → EReal)
    (W4 : (⟨2, ![N, 1]⟩ : Shape).Idx → EReal) (b4 : (⟨2, ![1, 1]⟩ : Shape).Idx → EReal) :
    (⟨1, ![M]⟩ : Shape).Idx → EReal :=
  fun i => logSigmoid (logits g W1 b1 W2 b2 W3 b3 W4 b4 (ix2 (i 0) (0 : Fin 1)))

/-- The whole program at its extents: the `16000000` edge attributes regrouped as `500000` rows of `32`, each bias
    vector as a row. -/
def out (ea : (⟨2, ![16000000, 1]⟩ : Shape).Idx → EReal)
    (W1 : (⟨2, ![32, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (W4 : (⟨2, ![256, 1]⟩ : Shape).Idx → EReal) (b4 : (⟨1, ![1]⟩ : Shape).Idx → EReal)
    (hg : (⟨2, ![16000000, 1]⟩ : Shape).ShapeCasts ⟨2, ![500000, 32]⟩)
    (hb : (⟨1, ![256]⟩ : Shape).ShapeCasts ⟨2, ![1, 256]⟩) (hb4 : (⟨1, ![1]⟩ : Shape).ShapeCasts ⟨2, ![1, 1]⟩) :
    (⟨1, ![500000]⟩ : Shape).Idx → EReal :=
  result (shapeCast ⟨2, ![500000, 32]⟩ ea hg) W1 (shapeCast ⟨2, ![1, 256]⟩ b1 hb) W2 (shapeCast ⟨2, ![1, 256]⟩ b2 hb)
    W3 (shapeCast ⟨2, ![1, 256]⟩ b3 hb) W4 (shapeCast ⟨2, ![1, 1]⟩ b4 hb4)

end Cert.Mlp

end
-- ==== Proof.KernelBlock.lean ====
/-
  One block of the kernel body, read as values over the extended reals.

  At a grid point the body holds a block `x` of `4000` rows of the regrouped edge attributes and the whole weights.  Each
  hidden layer is a matrix product into a zero accumulator (a change of float format is the identity here), plus the bias
  row broadcast over the rows, under `tanh`: the layer function `Cert.Mlp.hidden`.  The last layer multiplies every row
  by the weight ROW `w` (the last weight column laid out as a row) and sums along the lanes: entry `p` is
  `∑ k, h (p, k) · w (0, k)`, the dot product with the weight column.  Then the bias is added, `log σ` is taken in the
  body's spelling (negations written as subtractions from zero), and the column of `4000` numbers is laid out as the row
  block `[1, 1, 4000]`: lane `p` is row `p`'s number.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«141119_j89137751261683_2_alg».proof.Proof.Gen.KernelIdeal.Skeleton
import proofs.«141119_j89137751261683_2_alg».proof.Proof.LibKernelDense
import proofs.«141119_j89137751261683_2_alg».proof.Proof.LibKeepdims
import proofs.«141119_j89137751261683_2_alg».proof.Proof.Spec

noncomputable section

namespace Cert.KernelIdeal.Block

open Cert.KernelIdeal Cert.KernelIdeal.Gen Idealize.ShloMosaic Idealize.ShloMosaic.ValueIdx Cert.Layers Cert.Mlp

/-- A lane sum from the zero accumulator, read at row `p`: the sum of the row's `256` entries. -/
theorem lane_sum (src : FVec Ideal S4000x256 .f32) (h : S4000x256.Reduces [1] S4000) (hφ : FKind.Formats .f32)
    (hacc : (0x00000000#32 : BitVec 32) = FKind.add.neutral .f32 hφ) (p : Fin 4000) :
    multiReduction .add [1] S4000 src 0x00000000#32 h hφ hacc (ix1 p) = ∑ k : Fin 256, src (ix2 p k) := by
  refine (Ideal.multiReduction_add_single src 0x00000000#32 h hφ hacc (ix1 p)).trans ?_
  refine Finset.sum_congr rfl fun k _ => congrArg src ?_
  funext a
  refine Fin.ext ?_
  match a with
  | ⟨0, _⟩ => rfl
  | ⟨1, _⟩ => rfl

open Facts₀ Facts

theorem dot1_plain : dot_S4000x32_S32x256_S4000x256_1_0_0_1_n_n = DotDims.plain 4000 32 256 := rfl
theorem dot2_plain : dot_S4000x256_S256x256_S4000x256_1_0_0_1_n_n = DotDims.plain 4000 256 256 := rfl

/-- The body's column of logits-before-bias: row `p` of the third hidden layer dotted with the weight row. -/
theorem col_apply (x0 : FVec Ideal S4000x32 .f32) (x1 : FVec Ideal S32x256 .bf16) (x2 : FVec Ideal S1x256 .f32)
    (x3 : FVec Ideal S256x256 .bf16) (x4 : FVec Ideal S1x256 .f32) (x5 : FVec Ideal S256x256 .bf16) (x6 : FVec Ideal S1x256 .f32)
    (x7 : FVec Ideal S1x256 .f32) (p : Fin 4000) (u : Fin 1) :
    k0_pay2 (F := Ideal) x0 x1 x2 x3 x4 x5 x6 x7 (ix2 p u)
      = ∑ k : Fin 256, hidden (hidden (hidden x0 x1 x2) x3 x4) x5 x6 (ix2 p k) * x7 (ix2 (0 : Fin 1) k) := by
  unfold k0_pay2
  dsimp only
  rw [Cert.LibKeepdims.shapeCast_a_a1_apply _ _ p u]
  refine (lane_sum _ _ _ _ p).trans ?_
  refine Finset.sum_congr rfl fun k _ => ?_
  rw [mulf_apply, broadcastTo_1b_ab_apply, shapeCast_self x7]
  refine congrArg (· * x7 (ix2 (0 : Fin 1) k)) ?_
  rw [hidden_of_ops _ dot2_plain, hidden_of_ops _ dot2_plain, shapeCast_self x0, hidden_of_ops _ dot1_plain]
  rfl

/-- Entry by entry readings of the body's remaining elementwise operations. -/
theorem absf_apply' {s : Shape} {φ : FTy} (a : FVec Ideal s φ) (i : s.Idx) : absf a i = max (a i) (-(a i)) := rfl
theorem exp_apply' {s : Shape} {φ : FTy} (a : FVec Ideal s φ) (i : s.Idx) : exp a i = Ideal.exp (a i) := rfl
theorem log1p_apply' {s : Shape} {φ : FTy} (a : FVec Ideal s φ) (i : s.Idx) : log1p a i = Ideal.log1p (a i) := rfl

/-- What the body stores, at lane `p` of the `[1, 1, 4000]` block: `log σ` of row `p`'s entry of the column plus the
    bias.  The column `[4000, 1]`, flattened and laid out as a row, keeps row `p` at lane `p`. -/
theorem pay1_apply (v34 : FVec Ideal S4000x1 .f32) (v36 : FVec Ideal S1x1 .f32) (p : Fin 4000) :
    k0_pay1 (F := Ideal) v34 v36 (ix3 (0 : Fin 1) (0 : Fin 1) p)
      = logSigmoid (v34 (ix2 p (0 : Fin 1)) + v36 (ix2 (0 : Fin 1) (0 : Fin 1))) := by
  unfold k0_pay1
  try dsimp only
  rw [shapeCast_apply _ _ (ix3 (0 : Fin 1) (0 : Fin 1) p) (ix1 p) (by
    rw [Shape.rowMajor_val_one, Shape.rowMajor_val_three]
    show p.val = ((0 : Fin 1).val * 1 + (0 : Fin 1).val) * 4000 + p.val
    simp)]
  rw [shapeCast_apply _ _ (ix1 p) (ix2 p (0 : Fin 1)) (by
    rw [Shape.rowMajor_val_one, Shape.rowMajor_val_two]
    show p.val * 1 + (0 : Fin 1).val = p.val
    simp)]
  simp only [subf_apply, addf_apply, maximumf_apply, broadcast_apply, select_apply, cmpf_apply, absf_apply', exp_apply',
    log1p_apply', Ideal.cmpf_def]
  rw [broadcastTo_1b_ab_apply v36 _ p (0 : Fin 1)]
  simp only [show (Scalar.ofBits (F := Ideal) .f32 0x00000000#32 : EReal) = 0 from Ideal.ofBits_zero_f32]
  exact logSigmoid_of_sub _

/-- The whole body at lane `p`: `log σ` of row `p`'s logit, the last weight column given as the row `x7` and as the
    column `W4` with the same entries. -/
theorem body_apply (x0 : FVec Ideal S4000x32 .f32) (x1 : FVec Ideal S32x256 .bf16) (x2 : FVec Ideal S1x256 .f32)
    (x3 : FVec Ideal S256x256 .bf16) (x4 : FVec Ideal S1x256 .f32) (x5 : FVec Ideal S256x256 .bf16) (x6 : FVec Ideal S1x256 .f32)
    (x7 : FVec Ideal S1x256 .f32) (x8 : FVec Ideal S1x1 .f32) (W4 : (⟨2, ![256, 1]⟩ : Shape).Idx → EReal)
    (hW : ∀ k : Fin 256, x7 (ix2 (0 : Fin 1) k) = W4 (ix2 k (0 : Fin 1))) (p : Fin 4000) :
    k0_pay1 (F := Ideal) (k0_pay2 x0 x1 x2 x3 x4 x5 x6 x7) (k0_pay3 x8) (ix3 (0 : Fin 1) (0 : Fin 1) p)
      = logSigmoid (logits x0 x1 x2 x3 x4 x5 x6 W4 x8 (ix2 p (0 : Fin 1))) := by
  rw [pay1_apply, col_apply]
  refine congrArg logSigmoid ?_
  show _ + k0_pay3 (F := Ideal) x8 (ix2 (0 : Fin 1) (0 : Fin 1))
      = (∑ k : Fin 256, hidden (hidden (hidden x0 x1 x2) x3 x4) x5 x6 (ix2 p k) * W4 (ix2 k (0 : Fin 1))) + x8 (ix2 (0 : Fin 1) (0 : Fin 1))
  unfold k0_pay3
  try dsimp only
  rw [shapeCast_self x8]
  refine congrArg (· + x8 (ix2 (0 : Fin 1) (0 : Fin 1))) ?_
  exact Finset.sum_congr rfl fun k _ => by rw [hW k]

end Cert.KernelIdeal.Block

end
-- ==== Proof.KernelValue.lean ====
/-
  The idealized kernel program's result, read as one function of its arguments.

  Before the launch the host regroups the edge attributes as `500000` rows of `32`, lays each bias vector and the last
  weight column out as a row, and changes the three weight matrices' float format (the identity over the extended reals).
  The launch has `125` points; point `t` stages rows `4000 t … 4000 t + 3999` of the regrouped attributes and every
  weight whole, and writes back the block `[t, 0, ·]` of a `[125, 1, 4000]` array: lane `p` is `log σ` of the logit of row
  `4000 t + p`, because every layer acts row by row.  The `125` blocks tile the array, and the final reshape to
  `[500000]` puts entry `(t, 0, p)` at position `4000 t + p`: node `n` gets `log σ` of its own logit.
-/
import proofs.«141119_j89137751261683_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import proofs.«141119_j89137751261683_2_alg».proof.Proof.KernelBlock
import proofs.«141119_j89137751261683_2_alg».proof.Proof.Spec

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo Cert.Layers Cert.Mlp

variable (m : (ℓ : Loc nD τ sig) → Buf (Elt Ideal) ℓ) (ρ : Dev nD → PrngReg)

/-! ## The arguments, and the result as a function of them -/

abbrev argEA (c : Dev nD) : S16000000x1.Idx → EReal := m ((c : Thread nD τ).loc main_arg2)
abbrev argW1 (c : Dev nD) : S32x256.Idx → EReal := m ((c : Thread nD τ).loc main_arg3)
abbrev argB1 (c : Dev nD) : S256.Idx → EReal := m ((c : Thread nD τ).loc main_arg4)
abbrev argW2 (c : Dev nD) : S256x256.Idx → EReal := m ((c : Thread nD τ).loc main_arg5)
abbrev argB2 (c : Dev nD) : S256.Idx → EReal := m ((c : Thread nD τ).loc main_arg6)
abbrev argW3 (c : Dev nD) : S256x256.Idx → EReal := m ((c : Thread nD τ).loc main_arg7)
abbrev argB3 (c : Dev nD) : S256.Idx → EReal := m ((c : Thread nD τ).loc main_arg8)
abbrev argW4 (c : Dev nD) : S256x1.Idx → EReal := m ((c : Thread nD τ).loc main_arg9)
abbrev argB4 (c : Dev nD) : S1.Idx → EReal := m ((c : Thread nD τ).loc main_arg10)

/-- The regrouped edge attributes and the bias rows. -/
abbrev rowsG (c : Dev nD) : S500000x32.Idx → EReal := shapeCast S500000x32 (argEA m c) shapeCasts_S16000000x1_S500000x32
abbrev rowB1 (c : Dev nD) : S1x256.Idx → EReal := shapeCast S1x256 (argB1 m c) shapeCasts_S256_S1x256
abbrev rowB2 (c : Dev nD) : S1x256.Idx → EReal := shapeCast S1x256 (argB2 m c) shapeCasts_S256_S1x256
abbrev rowB3 (c : Dev nD) : S1x256.Idx → EReal := shapeCast S1x256 (argB3 m c) shapeCasts_S256_S1x256
abbrev rowB4 (c : Dev nD) : S1x1.Idx → EReal := shapeCast S1x1 (argB4 m c) shapeCasts_S1_S1x1

/-- Every node's logit. -/
abbrev allLogits (c : Dev nD) : (⟨2, ![500000, 1]⟩ : Shape).Idx → EReal :=
  logits (rowsG m c) (argW1 m c) (rowB1 m c) (argW2 m c) (rowB2 m c) (argW3 m c) (rowB3 m c) (argW4 m c) (rowB4 m c)

/-- The program's result. -/
abbrev outG (c : Dev nD) : S500000.Idx → EReal :=
  Cert.Mlp.out (argEA m c) (argW1 m c) (argB1 m c) (argW2 m c) (argB2 m c) (argW3 m c) (argB3 m c) (argW4 m c) (argB4 m c)
    shapeCasts_S16000000x1_S500000x32 shapeCasts_S256_S1x256 shapeCasts_S1_S1x1

theorem outG_apply (c : Dev nD) (n : Fin 500000) : outG m c (ix1 n) = logSigmoid (allLogits m c (ix2 n (0 : Fin 1))) := rfl

/-! ## The arrays as the launch finds them -/

theorem V_v0 (c : Dev nD) : (V m c main_v0 : S500000x32.Idx → EReal) = rowsG m c := by
  show StableHlo.after hostOps0 (fun b => m (c, b)) (Proc.devRef .tc main_v0) = _
  after_results
  rfl
theorem V_v1 (c : Dev nD) : (V m c main_v1 : S1x256.Idx → EReal) = rowB1 m c := by
  show StableHlo.after hostOps0 (fun b => m (c, b)) (Proc.devRef .tc main_v1) = _
  after_results
  rfl
theorem V_v2 (c : Dev nD) : (V m c main_v2 : S1x256.Idx → EReal) = rowB2 m c := by
  show StableHlo.after hostOps0 (fun b => m (c, b)) (Proc.devRef .tc main_v2) = _
  after_results
  rfl
theorem V_v3 (c : Dev nD) : (V m c main_v3 : S1x256.Idx → EReal) = rowB3 m c := by
  show StableHlo.after hostOps0 (fun b => m (c, b)) (Proc.devRef .tc main_v3) = _
  after_results
  rfl
theorem V_v4 (c : Dev nD) : (V m c main_v4 : S1x1.Idx → EReal) = rowB4 m c := by
  show StableHlo.after hostOps0 (fun b => m (c, b)) (Proc.devRef .tc main_v4) = _
  after_results
  rfl
theorem V_v5 (c : Dev nD) : (V m c main_v5 : S32x256.Idx → EReal) = argW1 m c := by
  show StableHlo.after hostOps0 (fun b => m (c, b)) (Proc.devRef .tc main_v5) = _
  after_results
  rfl
theorem V_v6 (c : Dev nD) : (V m c main_v6 : S256x256.Idx → EReal) = argW2 m c := by
  show StableHlo.after hostOps0 (fun b => m (c, b)) (Proc.devRef .tc main_v6) = _
  after_results
  rfl
theorem V_v7 (c : Dev nD) : (V m c main_v7 : S256x256.Idx → EReal) = argW3 m c := by
  show StableHlo.after hostOps0 (fun b => m (c, b)) (Proc.devRef .tc main_v7) = _
  after_results
  rfl
/-- The last weight column laid out as a row. -/
theorem V_v8 (c : Dev nD) : (V m c main_v8 : S1x256.Idx → EReal) = shapeCast S1x256 (argW4 m c) shapeCasts_S256x1_S1x256 := by
  show StableHlo.after hostOps0 (fun b => m (c, b)) (Proc.devRef .tc main_v8) = _
  after_results
  rfl

/-! ## The blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the `125` points: window 0 and the output move with the point along their first
    axis, every other window stays at block `(0, 0)`. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 3) = t.val
    ∧ win0_9.index t (1 : Fin 3) = 0
    ∧ win0_9.index t (2 : Fin 3) = 0 :=
  (by decide +kernel : ∀ t : Fin grid0.N, _)

theorem point_lt (t : Fin cfg0.N) : t.val < 125 := lt_of_lt_of_eq t.isLt (show cfg0.N = 125 from N_0)

/-- The node that row `p` of point `t`'s block belongs to. -/
def rowOf (t : Fin cfg0.N) (p : Fin 4000) : Fin 500000 :=
  ⟨4000 * t.val + p.val, by have := point_lt t; have := p.isLt; omega⟩

/-- Window 0's block at point `t` is rows `4000 t … 4000 t + 3999` of the regrouped edge attributes. -/
theorem blk0_rows (c : Dev nD) (t : Fin cfg0.N) :
    RowsOf (B := 4000) (M := 500000) (K := 32) (rowOf t) (iblk m c 0 t : S4000x32.Idx → EReal) (rowsG m c) := by
  intro p k
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  unfold iblk
  rw [View.read_apply]
  show V m c main_v0 _ = _
  rw [V_v0]
  refine congrArg _ ?_
  funext a
  refine Fin.ext ?_
  match a with
  | ⟨0, _⟩ => show win0_0.index t (0 : Fin 2) * 4000 + 1 * p.val = 4000 * t.val + p.val; rw [e0_0]; omega
  | ⟨1, _⟩ => show win0_0.index t (1 : Fin 2) * 32 + 1 * k.val = k.val; rw [e0_1]; omega

/-- Window 1 stages its whole array at every point. -/
theorem blk1 (c : Dev nD) (t : Fin cfg0.N) : (iblk m c 1 t : S32x256.Idx → EReal) = argW1 m c := by
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext y
  unfold iblk
  rw [View.read_apply]
  show V m c main_v5 _ = _
  rw [V_v5]
  refine congrArg _ ?_
  funext a
  refine Fin.ext ?_
  match a with
  | ⟨0, _⟩ => show win0_1.index t (0 : Fin 2) * 32 + 1 * (y 0).val = (y 0).val; rw [e1_0]; omega
  | ⟨1, _⟩ => show win0_1.index t (1 : Fin 2) * 256 + 1 * (y 1).val = (y 1).val; rw [e1_1]; omega

/-- Window 2 stages its whole array at every point. -/
theorem blk2 (c : Dev nD) (t : Fin cfg0.N) : (iblk m c 2 t : S1x256.Idx → EReal) = rowB1 m c := by
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext y
  unfold iblk
  rw [View.read_apply]
  show V m c main_v1 _ = _
  rw [V_v1]
  refine congrArg _ ?_
  funext a
  refine Fin.ext ?_
  match a with
  | ⟨0, _⟩ => show win0_2.index t (0 : Fin 2) * 1 + 1 * (y 0).val = (y 0).val; rw [e2_0]; omega
  | ⟨1, _⟩ => show win0_2.index t (1 : Fin 2) * 256 + 1 * (y 1).val = (y 1).val; rw [e2_1]; omega

/-- Window 3 stages its whole array at every point. -/
theorem blk3 (c : Dev nD) (t : Fin cfg0.N) : (iblk m c 3 t : S256x256.Idx → EReal) = argW2 m c := by
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext y
  unfold iblk
  rw [View.read_apply]
  show V m c main_v6 _ = _
  rw [V_v6]
  refine congrArg _ ?_
  funext a
  refine Fin.ext ?_
  match a with
  | ⟨0, _⟩ => show win0_3.index t (0 : Fin 2) * 256 + 1 * (y 0).val = (y 0).val; rw [e3_0]; omega
  | ⟨1, _⟩ => show win0_3.index t (1 : Fin 2) * 256 + 1 * (y 1).val = (y 1).val; rw [e3_1]; omega

/-- Window 4 stages its whole array at every point. -/
theorem blk4 (c : Dev nD) (t : Fin cfg0.N) : (iblk m c 4 t : S1x256.Idx → EReal) = rowB2 m c := by
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext y
  unfold iblk
  rw [View.read_apply]
  show V m c main_v2 _ = _
  rw [V_v2]
  refine congrArg _ ?_
  funext a
  refine Fin.ext ?_
  match a with
  | ⟨0, _⟩ => show win0_4.index t (0 : Fin 2) * 1 + 1 * (y 0).val = (y 0).val; rw [e4_0]; omega
  | ⟨1, _⟩ => show win0_4.index t (1 : Fin 2) * 256 + 1 * (y 1).val = (y 1).val; rw [e4_1]; omega

/-- Window 5 stages its whole array at every point. -/
theorem blk5 (c : Dev nD) (t : Fin cfg0.N) : (iblk m c 5 t : S256x256.Idx → EReal) = argW3 m c := by
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext y
  unfold iblk
  rw [View.read_apply]
  show V m c main_v7 _ = _
  rw [V_v7]
  refine congrArg _ ?_
  funext a
  refine Fin.ext ?_
  match a with
  | ⟨0, _⟩ => show win0_5.index t (0 : Fin 2) * 256 + 1 * (y 0).val = (y 0).val; rw [e5_0]; omega
  | ⟨1, _⟩ => show win0_5.index t (1 : Fin 2) * 256 + 1 * (y 1).val = (y 1).val; rw [e5_1]; omega

/-- Window 6 stages its whole array at every point. -/
theorem blk6 (c : Dev nD) (t : Fin cfg0.N) : (iblk m c 6 t : S1x256.Idx → EReal) = rowB3 m c := by
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext y
  unfold iblk
  rw [View.read_apply]
  show V m c main_v3 _ = _
  rw [V_v3]
  refine congrArg _ ?_
  funext a
  refine Fin.ext ?_
  match a with
  | ⟨0, _⟩ => show win0_6.index t (0 : Fin 2) * 1 + 1 * (y 0).val = (y 0).val; rw [e6_0]; omega
  | ⟨1, _⟩ => show win0_6.index t (1 : Fin 2) * 256 + 1 * (y 1).val = (y 1).val; rw [e6_1]; omega

/-- Window 7 stages its whole array at every point. -/
theorem blk7 (c : Dev nD) (t : Fin cfg0.N) : (iblk m c 7 t : S1x256.Idx → EReal) = shapeCast S1x256 (argW4 m c) Gen.shapeCasts_S256x1_S1x256 := by
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext y
  unfold iblk
  rw [View.read_apply]
  show V m c main_v8 _ = _
  rw [V_v8]
  refine congrArg _ ?_
  funext a
  refine Fin.ext ?_
  match a with
  | ⟨0, _⟩ => show win0_7.index t (0 : Fin 2) * 1 + 1 * (y 0).val = (y 0).val; rw [e7_0]; omega
  | ⟨1, _⟩ => show win0_7.index t (1 : Fin 2) * 256 + 1 * (y 1).val = (y 1).val; rw [e7_1]; omega

/-- Window 8 stages its whole array at every point. -/
theorem blk8 (c : Dev nD) (t : Fin cfg0.N) : (iblk m c 8 t : S1x1.Idx → EReal) = rowB4 m c := by
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext y
  unfold iblk
  rw [View.read_apply]
  show V m c main_v4 _ = _
  rw [V_v4]
  refine congrArg _ ?_
  funext a
  refine Fin.ext ?_
  match a with
  | ⟨0, _⟩ => show win0_8.index t (0 : Fin 2) * 1 + 1 * (y 0).val = (y 0).val; rw [e8_0]; omega
  | ⟨1, _⟩ => show win0_8.index t (1 : Fin 2) * 1 + 1 * (y 1).val = (y 1).val; rw [e8_1]; omega

/-- What point `t`'s body computes, at lane `p`: the result of the node of row `p`. -/
theorem point_apply (c : Dev nD) (t : Fin cfg0.N) (p : Fin 4000) :
    k0_pay1 (F := Ideal) (k0_pay2 (iblk m c 0 t) (iblk m c 1 t) (iblk m c 2 t) (iblk m c 3 t) (iblk m c 4 t) (iblk m c 5 t) (iblk m c 6 t) (iblk m c 7 t)) (k0_pay3 (iblk m c 8 t)) (ix3 (0 : Fin 1) (0 : Fin 1) p)
      = outG m c (ix1 (rowOf t p)) := by
  refine (Cert.KernelIdeal.Block.body_apply (iblk m c 0 t) (iblk m c 1 t) (iblk m c 2 t) (iblk m c 3 t) (iblk m c 4 t) (iblk m c 5 t) (iblk m c 6 t) (iblk m c 7 t) (iblk m c 8 t) (argW4 m c) ?_ p).trans ?_
  · intro k
    rw [blk7 m c t]
    refine shapeCast_apply _ _ (ix2 (0 : Fin 1) k) (ix2 k (0 : Fin 1)) ?_
    rw [Shape.rowMajor_val_two, Shape.rowMajor_val_two]
    show k.val * 1 + (0 : Fin 1).val = (0 : Fin 1).val * 256 + k.val
    simp
  · rw [outG_apply]
    refine congrArg logSigmoid ?_
    rw [blk1 m c t, blk2 m c t, blk3 m c t, blk4 m c t, blk5 m c t, blk6 m c t, blk8 m c t]
    exact rowsOf_logits (blk0_rows m c t) _ _ _ _ _ _ _ _ p (0 : Fin 1)

/-! ## From the blocks to the array -/

/-- The `[125, 1, 4000]` array the launch leaves: entry `(t, 0, p)` is the result of node `4000 t + p`. -/
def blocksG (c : Dev nD) : S125x1x4000.Idx → EReal := fun i =>
  outG m c (ix1 ⟨4000 * (i 0).val + (i 2).val, by
    have h0 : (i 0).val < 125 := (i 0).isLt
    have h2 : (i 2).val < 4000 := (i 2).isLt
    omega⟩)

/-- What point `t` writes back is block `t` of that array. -/
theorem flushed_eq (c : Dev nD) (t : Fin cfg0.N) :
    (dats m 0 c).flushed 9 t = ((cfg0.win 9).blk t).view.read (Elt Ideal) (blocksG m c) := by
  show (cfg0.win 9).cut (grid0.coords t) ((dats m 0 c).after 9 t) = _
  rw [after0_9]
  unfold out0_9
  rw [View.canon_unit_zero hz3]
  simp only [View.ld_unit_zero (S := S4000x32) hz2, View.ld_unit_zero (S := S32x256) hz2, View.ld_unit_zero (S := S1x256) hz2,
    View.ld_unit_zero (S := S256x256) hz2, View.ld_unit_zero (S := S1x1) hz2]
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  funext j
  show k0_pay1 (F := Ideal) (k0_pay2 (iblk m c 0 t) (iblk m c 1 t) (iblk m c 2 t) (iblk m c 3 t) (iblk m c 4 t) (iblk m c 5 t) (iblk m c 6 t) (iblk m c 7 t)) (k0_pay3 (iblk m c 8 t)) j
      = blocksG m c (((cfg0.win 9).blk t).view.emb j)
  have h0 : (j 0).val = 0 := by have h : (j 0).val < 1 := (j 0).isLt; omega
  have h1 : (j 1).val = 0 := by have h : (j 1).val < 1 := (j 1).isLt; omega
  have h2 : (j 2).val < 4000 := (j 2).isLt
  have hj : j = ix3 (0 : Fin 1) (0 : Fin 1) (⟨(j 2).val, h2⟩ : Fin 4000) := by
    funext a
    refine Fin.ext ?_
    match a with
    | ⟨0, _⟩ => exact h0
    | ⟨1, _⟩ => exact h1
    | ⟨2, _⟩ => rfl
  refine (congrArg (k0_pay1 (F := Ideal) (k0_pay2 (iblk m c 0 t) (iblk m c 1 t) (iblk m c 2 t) (iblk m c 3 t) (iblk m c 4 t) (iblk m c 5 t) (iblk m c 6 t) (iblk m c 7 t)) (k0_pay3 (iblk m c 8 t))) hj).trans
    ((point_apply m c t ⟨(j 2).val, h2⟩).trans ?_)
  unfold blocksG
  refine congrArg (outG m c) ?_
  funext a
  refine Fin.ext ?_
  match a with
  | ⟨0, _⟩ =>
    show 4000 * t.val + (j 2).val
        = 4000 * (win0_9.index t (0 : Fin 3) * 1 + 1 * (j 0).val) + (win0_9.index t (2 : Fin 3) * 4000 + 1 * (j 2).val)
    rw [e9_0, e9_2, h0]
    omega

/-- An index of the array is in point `t`'s block iff each coordinate is in the block's range on its axis. -/
theorem mem_blk9 (t : Fin cfg0.N) (i : S125x1x4000.Idx) :
    i ∈ ((cfg0.win 9).blk t).view.set ↔ ∀ a : Fin 3, win0_9.index t a * S1x1x4000.size a ≤ (i a).val
      ∧ (i a).val < win0_9.index t a * S1x1x4000.size a + S1x1x4000.size a := by
  show i ∈ ((View.whole main_v9).slice (win0_9.rect t)).set ↔ _
  rw [View.set_slice_whole, Rect.mem_set_unit]
  exact Iff.rfl

/-- The `125` blocks tile the array: index `(b, 0, l)` is in point `b`'s block. -/
theorem cover9 (i : S125x1x4000.Idx) :
    ∃ t : Fin cfg0.N, (cfg0.win 9).flush t = true ∧ i ∈ ((cfg0.win 9).blk t).view.set := by
  have hi0 : (i 0).val < 125 := (i 0).isLt
  have hi1 : (i 1).val < 1 := (i 1).isLt
  have hi2 : (i 2).val < 4000 := (i 2).isLt
  have hN : (i 0).val < cfg0.N := lt_of_lt_of_eq hi0 (show 125 = cfg0.N from N_0.symm)
  obtain ⟨t, ht⟩ : ∃ t : Fin cfg0.N, t.val = (i 0).val := ⟨⟨(i 0).val, hN⟩, rfl⟩
  obtain ⟨e0_0, e0_1, e1_0, e1_1, e2_0, e2_1, e3_0, e3_1, e4_0, e4_1, e5_0, e5_1, e6_0, e6_1, e7_0, e7_1, e8_0, e8_1, e9_0, e9_1, e9_2⟩ := idx_facts t
  refine ⟨t, flush0_9 t, ?_⟩
  rw [mem_blk9]
  intro a
  match a with
  | ⟨0, _⟩ =>
    show win0_9.index t (0 : Fin 3) * 1 ≤ (i 0).val ∧ (i 0).val < win0_9.index t (0 : Fin 3) * 1 + 1
    rw [e9_0]; omega
  | ⟨1, _⟩ =>
    show win0_9.index t (1 : Fin 3) * 1 ≤ (i 1).val ∧ (i 1).val < win0_9.index t (1 : Fin 3) * 1 + 1
    rw [e9_1]; omega
  | ⟨2, _⟩ =>
    show win0_9.index t (2 : Fin 3) * 4000 ≤ (i 2).val ∧ (i 2).val < win0_9.index t (2 : Fin 3) * 4000 + 4000
    rw [e9_2]; omega

/-- So the launch leaves exactly that array. -/
theorem final9 (c : Dev nD) : (dats m 0 c).arrAt 9 cfg0.N = blocksG m c :=
  (dats m 0 c).arrAt_eq_of_cover 9 (blocksG m c) (fun t _ => flushed_eq m c t) cover9

/-! ## The host's last reshape, and the run -/

/-- The host's reshape of the `[125, 1, 4000]` array to `[500000]` puts entry `(t, 0, p)` at position `4000 t + p`: the
    result of that node. -/
theorem reshape_blocksG (c : Dev nD) (h : S125x1x4000.ShapeCasts S500000) : shapeCast S500000 (blocksG m c) h = outG m c := by
  funext i
  obtain ⟨n, rfl⟩ : ∃ n : Fin 500000, i = ix1 n := ⟨i 0, eq_ix1 i⟩
  have hn : n.val < 500000 := n.isLt
  rw [shapeCast_apply _ h (ix1 n) (ix3 (⟨n.val / 4000, by omega⟩ : Fin 125) (0 : Fin 1) (⟨n.val % 4000, Nat.mod_lt _ (by norm_num)⟩ : Fin 4000)) (by
    rw [Shape.rowMajor_val_three, Shape.rowMajor_val_one]
    show (n.val / 4000 * 1 + (0 : Fin 1).val) * 4000 + n.val % 4000 = n.val
    simp only [Fin.val_zero]
    omega)]
  unfold blocksG
  refine congrArg (outG m c) ?_
  funext a
  refine Fin.ext ?_
  match a with
  | ⟨0, _⟩ =>
    show 4000 * (n.val / 4000) + n.val % 4000 = n.val
    omega

/-- What the program's result buffer holds after the host's tail. -/
theorem tail_eq (c : Dev nD) :
    (Pipeline.afterTail₀ cfgs (dats m) 0 (V0 m) [hostOps1] c main_v10 : S500000.Idx → EReal) = outG m c := by
  unfold Pipeline.afterTail₀
  show StableHlo.after hostOps1 _ (Proc.devRef .tc main_v10) = _
  after_results
  refine Eq.trans ?_ (reshape_blocksG m c Gen.shapeCasts_S125x1x4000_S500000)
  refine congrArg (fun X => shapeCast S500000 X Gen.shapeCasts_S125x1x4000_S500000) ?_
  exact (Pipeline.withArrays_arr spec0 launch0.win.arr_inj c _ _ 9).trans (final9 m c)

/-- The run, read: every weakly fair execution ends with the result buffer at the specification's function of the
    arguments and the arguments as launched. -/
theorem run : θ_run defs (onTc (τ := τ) (main (F := Ideal))) ⟨m, fun _ => 0, ρ⟩ fun r => ∀ c : Dev nD,
      r.2.mem ((c.tc : Thread nD τ).loc main_v10) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KValue

end
-- ==== Proof.RefRun.lean ====
/-
  The reference program as a straight line of host operations, and its run.

  The reference's @main is twenty-one operations of its own, one call of @log_sigmoid and a last reshape; @log_sigmoid
  is a negation, one call of @softplus and a negation; @softplus is fourteen operations.  A call means the callee's body
  run on the call's own buffers, so with both functions' definitions unfolded at their call sites @main is one line of
  thirty-seven operations: `ops` below, the callees' operations listed where the calls stand, over the buffer records
  `main_call0` and `main_call0.call0`.  The library's run of a straight line then gives, for every weakly fair
  execution, each buffer's final contents as the fold of the operations' results over the launch contents.
-/
import proofs.«141119_j89137751261683_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: the regrouping of the edge attributes; three times a matrix
    product, the bias vector broadcast to a row and then over all rows, the addition and the hyperbolic tangent; the last
    product and its bias; @log_sigmoid's negation, @softplus's fourteen operations (the zero constant, its three
    broadcasts, the maximum, the difference, the self-comparison, the sum, the absolute value, its negation, the
    exponential, `log (1 + ·)`, the sum and the select), @log_sigmoid's closing negation; the last reshape. -/
abbrev ops : List (HloOp τ sig (Elt F)) :=
  [ reshape main_arg2 main_v0 rfl shapeCasts_S16000000x1_S500000x32,
    binary main_v0 main_arg3 main_v1 ((fun l r => Host.dotGeneral dot_S500000x32_S32x256_S500000x256_1_0_0_1_n_n none l r) : (⟨S500000x32, .f32⟩ : BufTy).Contents (Elt F) → (⟨S32x256, .f32⟩ : BufTy).Contents (Elt F) → (⟨S500000x256, .f32⟩ : BufTy).Contents (Elt F)),
    unary main_arg4 main_v2 (broadcastInDim S1x256 ![1] bcast_S256_S1x256_1 : (⟨S256, .f32⟩ : BufTy).Contents (Elt F) → (⟨S1x256, .f32⟩ : BufTy).Contents (Elt F)),
    unary main_v2 main_v3 (broadcastInDim S500000x256 ![0, 1] bcast_S1x256_S500000x256_0_1 : (⟨S1x256, .f32⟩ : BufTy).Contents (Elt F) → (⟨S500000x256, .f32⟩ : BufTy).Contents (Elt F)),
    binary main_v1 main_v3 main_v4 (addf : (⟨S500000x256, .f32⟩ : BufTy).Contents (Elt F) → (⟨S500000x256, .f32⟩ : BufTy).Contents (Elt F) → (⟨S500000x256, .f32⟩ : BufTy).Contents (Elt F)),
    unary main_v4 main_v5 (Host.tanh : (⟨S500000x256, .f32⟩ : BufTy).Contents (Elt F) → (⟨S500000x256, .f32⟩ : BufTy).Contents (Elt F)),
    binary main_v5 main_arg5 main_v6 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    unary main_arg6 main_v7 (broadcastInDim S1x256 ![1] bcast_S256_S1x256_1 : (⟨S256, .f32⟩ : BufTy).Contents (Elt F) → (⟨S1x256, .f32⟩ : BufTy).Contents (Elt F)),
    unary main_v7 main_v8 (broadcastInDim S500000x256 ![0, 1] bcast_S1x256_S500000x256_0_1 : (⟨S1x256, .f32⟩ : BufTy).Contents (Elt F) → (⟨S500000x256, .f32⟩ : BufTy).Contents (Elt F)),
    binary main_v6 main_v8 main_v9 (addf : (⟨S500000x256, .f32⟩ : BufTy).Contents (Elt F) → (⟨S500000x256, .f32⟩ : BufTy).Contents (Elt F) → (⟨S500000x256, .f32⟩ : BufTy).Contents (Elt F)),
    unary main_v9 main_v10 (Host.tanh : (⟨S500000x256, .f32⟩ : BufTy).Contents (Elt F) → (⟨S500000x256, .f32⟩ : BufTy).Contents (Elt F)),
    binary main_v10 main_arg7 main_v11 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    unary main_arg8 main_v12 (broadcastInDim S1x256 ![1] bcast_S256_S1x256_1 : (⟨S256, .f32⟩ : BufTy).Contents (Elt F) → (⟨S1x256, .f32⟩ : BufTy).Contents (Elt F)),
    unary main_v12 main_v13 (broadcastInDim S500000x256 ![0, 1] bcast_S1x256_S500000x256_0_1 : (⟨S1x256, .f32⟩ : BufTy).Contents (Elt F) → (⟨S500000x256, .f32⟩ : BufTy).Contents (Elt F)),
    binary main_v11 main_v13 main_v14 (addf : (⟨S500000x256, .f32⟩ : BufTy).Contents (Elt F) → (⟨S500000x256, .f32⟩ : BufTy).Contents (Elt F) → (⟨S500000x256, .f32⟩ : BufTy).Contents (Elt F)),
    unary main_v14 main_v15 (Host.tanh : (⟨S500000x256, .f32⟩ : BufTy).Contents (Elt F) → (⟨S500000x256, .f32⟩ : BufTy).Contents (Elt F)),
    binary main_v15 main_arg9 main_v16 ((fun l r => Host.dotGeneral dot_S500000x256_S256x1_S500000x1_1_0_0_1_n_n none l r) : (⟨S500000x256, .f32⟩ : BufTy).Contents (Elt F) → (⟨S256x1, .f32⟩ : BufTy).Contents (Elt F) → (⟨S500000x1, .f32⟩ : BufTy).Contents (Elt F)),
    unary main_arg10 main_v17 (broadcastInDim S1x1 ![1] bcast_S1_S1x1_1 : (⟨S1, .f32⟩ : BufTy).Contents (Elt F) → (⟨S1x1, .f32⟩ : BufTy).Contents (Elt F)),
    unary main_v17 main_v18 (broadcastInDim S500000x1 ![0, 1] bcast_S1x1_S500000x1_0_1 : (⟨S1x1, .f32⟩ : BufTy).Contents (Elt F) → (⟨S500000x1, .f32⟩ : BufTy).Contents (Elt F)),
    binary main_v16 main_v18 main_v19 (addf : (⟨S500000x1, .f32⟩ : BufTy).Contents (Elt F) → (⟨S500000x1, .f32⟩ : BufTy).Contents (Elt F) → (⟨S500000x1, .f32⟩ : BufTy).Contents (Elt F)),
    TRef.unary (.of main_v19) main_call0.v0 Host.negf,
    TRef.nullary main_call0.call0.cst (constant S_ .f32 0x00000000#32),
    TRef.unary main_call0.call0.cst main_call0.call0.v0 (broadcastInDim S500000x1 ![] bcast_S_S500000x1),
    TRef.binary main_call0.v0 main_call0.call0.v0 main_call0.call0.v1 maximumf,
    TRef.unary main_call0.call0.cst main_call0.call0.v2 (broadcastInDim S500000x1 ![] bcast_S_S500000x1),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S500000x1 ![] bcast_S_S500000x1),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    reshape main_v20 main_v21 rfl shapeCasts_S500000x1_S500000 ]

-- thirty-seven binds re-associated: the rewrite under the chain recurses once per statement
set_option maxRecDepth 4096 in
/-- @main is that straight line: with the two functions' definitions unfolded at their calls and the records at their
    fields, both sides are one chain of steps once the sequencing is re-associated. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨reshape_bufs_sub .., binary_bufs_sub .., unary_bufs_sub .., unary_bufs_sub .., binary_bufs_sub .., unary_bufs_sub ..,
    binary_bufs_sub .., unary_bufs_sub .., unary_bufs_sub .., binary_bufs_sub .., unary_bufs_sub ..,
    binary_bufs_sub .., unary_bufs_sub .., unary_bufs_sub .., binary_bufs_sub .., unary_bufs_sub ..,
    binary_bufs_sub .., unary_bufs_sub .., unary_bufs_sub .., binary_bufs_sub ..,
    unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..,
    unary_bufs_sub .., reshape_bufs_sub ..⟩

/-- At the compiled mesh, for any float values, from any memory with zero counters: every weakly fair execution of
    @main on the TensorCores terminates, and every final state has each TensorCore buffer at the operations' fold over
    the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result as a function of its arguments: the specification.

  The run of the reference leaves every buffer at the fold of its thirty-seven operations over the launch contents.  Read
  at the result buffer the fold is one composed term of the nine arguments it uses (`refTerm`: the regrouped edge
  attributes through three layers `tanh (· W + b)`, the last product and bias, the softplus spelling of `log σ`, the last
  reshape), by computation; read at an argument buffer it is what was there, since no operation writes an argument.

  Over the extended reals the composed term is the specification `Cert.Mlp.out`.  Each layer is an equation between whole
  arrays: a matrix product with ordinary dimension numbers is `project`, the addition of a bias vector broadcast to a row
  and then over all rows is `addRow` of the vector reshaped to a row, and `tanh` acts entry by entry; so the term before
  the scalar tail is `Cert.Mlp.logits`.  The tail is pointwise: at row `n` it is the host's spelling of `log σ` at the
  logit of row `n`, the broadcast zero constant read as `0`; and the last reshape `[500000, 1] → [500000]` reads row `n`
  at position `n`.
-/
import proofs.«141119_j89137751261683_2_alg».proof.Proof.RefRun
import proofs.«141119_j89137751261683_2_alg».proof.Proof.Spec
import proofs.«141119_j89137751261683_2_alg».proof.Proof.LibDenseLayers
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRun

/-! ## The composed term, for any float values -/

section Term

variable {F : FTy → Type} [FloatOps F]

/-- A hidden layer as the host spells it, from `32` features: the product, the bias vector broadcast to a row and then
    over all rows, the sum, the hyperbolic tangent. -/
def layer32 (x : FVec F S500000x32 .f32) (w : FVec F S32x256 .f32) (b : FVec F S256 .f32) : FVec F S500000x256 .f32 :=
  Host.tanh (addf (Host.dotGeneral dot_S500000x32_S32x256_S500000x256_1_0_0_1_n_n none x w)
    (broadcastInDim S500000x256 ![0, 1] bcast_S1x256_S500000x256_0_1 (broadcastInDim S1x256 ![1] bcast_S256_S1x256_1 b)))

/-- The same from `256` features. -/
def layer256 (x : FVec F S500000x256 .f32) (w : FVec F S256x256 .f32) (b : FVec F S256 .f32) : FVec F S500000x256 .f32 :=
  Host.tanh (addf (Host.dotGeneral dot_S500000x256_S256x256_S500000x256_1_0_0_1_n_n none x w)
    (broadcastInDim S500000x256 ![0, 1] bcast_S1x256_S500000x256_0_1 (broadcastInDim S1x256 ![1] bcast_S256_S1x256_1 b)))

/-- The logits as the host spells them: the edge attributes regrouped, three hidden layers, the last product and bias. -/
def logitsT (ea : FVec F S16000000x1 .f32) (W1 : FVec F S32x256 .f32) (b1 : FVec F S256 .f32)
    (W2 : FVec F S256x256 .f32) (b2 : FVec F S256 .f32) (W3 : FVec F S256x256 .f32) (b3 : FVec F S256 .f32)
    (W4 : FVec F S256x1 .f32) (b4 : FVec F S1 .f32) : FVec F S500000x1 .f32 :=
  addf (Host.dotGeneral dot_S500000x256_S256x1_S500000x1_1_0_0_1_n_n none
      (layer256 (layer256 (layer32 (shapeCast S500000x32 ea shapeCasts_S16000000x1_S500000x32) W1 b1) W2 b2) W3 b3) W4)
    (broadcastInDim S500000x1 ![0, 1] bcast_S1x1_S500000x1_0_1 (broadcastInDim S1x1 ![1] bcast_S1_S1x1_1 b4))

/-- The zero constant broadcast over the column. -/
def zeros : FVec F S500000x1 .f32 :=
  broadcastInDim S500000x1 ![] bcast_S_S500000x1 (constant S_ .f32 0x00000000#32)

/-- @softplus: `max x 0 + log (1 + exp (-|x - 0|))`, with `x + 0` instead where `x - 0` differs from itself. -/
def softplusT (x : FVec F S500000x1 .f32) : FVec F S500000x1 .f32 :=
  select (cmpf .une (subf x zeros) (subf x zeros)) (addf x zeros)
    (addf (maximumf x zeros) (Host.log1p (Host.exp (Host.negf (Host.absf (subf x zeros))))))

/-- The result buffer's contents as a term of the nine arguments read: `-softplus (-logits)`, as a vector. -/
def refTerm (ea : FVec F S16000000x1 .f32) (W1 : FVec F S32x256 .f32) (b1 : FVec F S256 .f32)
    (W2 : FVec F S256x256 .f32) (b2 : FVec F S256 .f32) (W3 : FVec F S256x256 .f32) (b3 : FVec F S256 .f32)
    (W4 : FVec F S256x1 .f32) (b4 : FVec F S1 .f32) : FVec F S500000 .f32 :=
  shapeCast S500000 (Host.negf (softplusT (Host.negf (logitsT ea W1 b1 W2 b2 W3 b3 W4 b4)))) shapeCasts_S500000x1_S500000

set_option maxRecDepth 8192 in
/-- The fold at the result buffer is that term, by computation: the fold unrolled, each operation's result decides
    whether the buffer read is the one it writes, and the typed references' transports are the identity at these literal
    references. -/
theorem out_eq (V : Valuation τ sig (Elt F)) :
    after ops V (main_v21 : DevRef τ sig)
      = refTerm (V (main_arg2 : DevRef τ sig)) (V (main_arg3 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  simp only [after_cons, after_nil]
  rfl

/-! No operation writes an argument's buffer: the fold there is what was there. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem arg10_eq (V : Valuation τ sig (Elt F)) :
    after ops V (main_arg10 : DevRef τ sig) = V (main_arg10 : DevRef τ sig) := by
  simp only [after_cons, after_nil]
  rfl

end Term

/-! ## Over the extended reals: the term is the specification -/

section Ideal

open Cert.Layers Cert.Mlp

variable {α : Type}

/-- A column `[a, 1]` cast to the vector `[a]` reads, at `i`, the column's entry of row `i`: both indices have the same
    row-major position, `i · 1 + 0 = i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem layer32_eq (x : FVec Ideal S500000x32 .f32) (w : FVec Ideal S32x256 .f32) (b : FVec Ideal S256 .f32)
    (hc : (⟨1, ![256]⟩ : Shape).ShapeCasts ⟨2, ![1, 256]⟩) :
    layer32 x w b = hidden x w (shapeCast ⟨2, ![1, 256]⟩ b hc) :=
  hostLayer_eq_hidden dot_S500000x32_S32x256_S500000x256_1_0_0_1_n_n rfl x w b bcast_S256_S1x256_1 bcast_S1x256_S500000x256_0_1 hc

theorem layer256_eq (x : FVec Ideal S500000x256 .f32) (w : FVec Ideal S256x256 .f32) (b : FVec Ideal S256 .f32)
    (hc : (⟨1, ![256]⟩ : Shape).ShapeCasts ⟨2, ![1, 256]⟩) :
    layer256 x w b = hidden x w (shapeCast ⟨2, ![1, 256]⟩ b hc) :=
  hostLayer_eq_hidden dot_S500000x256_S256x256_S500000x256_1_0_0_1_n_n rfl x w b bcast_S256_S1x256_1 bcast_S1x256_S500000x256_0_1 hc

/-- The host's logits are the specification's, as whole arrays. -/
theorem logitsT_eq (ea : FVec Ideal S16000000x1 .f32) (W1 : FVec Ideal S32x256 .f32) (b1 : FVec Ideal S256 .f32)
    (W2 : FVec Ideal S256x256 .f32) (b2 : FVec Ideal S256 .f32) (W3 : FVec Ideal S256x256 .f32) (b3 : FVec Ideal S256 .f32)
    (W4 : FVec Ideal S256x1 .f32) (b4 : FVec Ideal S1 .f32)
    (hb : (⟨1, ![256]⟩ : Shape).ShapeCasts ⟨2, ![1, 256]⟩) (hb4 : (⟨1, ![1]⟩ : Shape).ShapeCasts ⟨2, ![1, 1]⟩) :
    logitsT ea W1 b1 W2 b2 W3 b3 W4 b4
      = logits (shapeCast ⟨2, ![500000, 32]⟩ ea shapeCasts_S16000000x1_S500000x32) W1 (shapeCast ⟨2, ![1, 256]⟩ b1 hb)
          W2 (shapeCast ⟨2, ![1, 256]⟩ b2 hb) W3 (shapeCast ⟨2, ![1, 256]⟩ b3 hb) W4 (shapeCast ⟨2, ![1, 1]⟩ b4 hb4) := by
  unfold logitsT logits
  rw [layer32_eq _ W1 b1 hb, layer256_eq _ W2 b2 hb, layer256_eq _ W3 b3 hb,
    dotGeneral_eq_project dot_S500000x256_S256x1_S500000x1_1_0_0_1_n_n rfl none _ W4,
    addf_bias_eq_addRow _ b4 bcast_S1_S1x1_1 bcast_S1x1_S500000x1_0_1 hb4]

/-- The broadcast zero constant reads `0` everywhere. -/
theorem zeros_apply (j : S500000x1.Idx) : zeros (F := Ideal) j = (0 : EReal) := by
  unfold zeros
  rw [broadcastInDim_apply ![] bcast_S_S500000x1 _ j ix0 (fun a => a.elim0)]
  show Ideal.ofBits .f32 0x00000000#32 = 0
  exact Ideal.ofBits_zero_f32

/-- The scalar tail, entry by entry: the negation of @softplus of the negated logit is `log σ` of the logit. -/
theorem tail_apply (L : FVec Ideal S500000x1 .f32) (j : S500000x1.Idx) :
    Host.negf (softplusT (Host.negf L)) j = logSigmoid (L j) := by
  refine Eq.trans ?_ (logSigmoid_of_neg (L j))
  show -(Scalar.select (Ideal.cmp .une (-(L j) - zeros (F := Ideal) j) (-(L j) - zeros (F := Ideal) j)) (-(L j) + zeros (F := Ideal) j)
        (max (-(L j)) (zeros (F := Ideal) j)
          + Ideal.log1p (Ideal.exp (-(max (-(L j) - zeros (F := Ideal) j) (-(-(L j) - zeros (F := Ideal) j)))))))
      = _
  rw [zeros_apply]

/-- The composed term is the specification. -/
theorem refTerm_eq (ea : FVec Ideal S16000000x1 .f32) (W1 : FVec Ideal S32x256 .f32) (b1 : FVec Ideal S256 .f32)
    (W2 : FVec Ideal S256x256 .f32) (b2 : FVec Ideal S256 .f32) (W3 : FVec Ideal S256x256 .f32) (b3 : FVec Ideal S256 .f32)
    (W4 : FVec Ideal S256x1 .f32) (b4 : FVec Ideal S1 .f32)
    (hb : (⟨1, ![256]⟩ : Shape).ShapeCasts ⟨2, ![1, 256]⟩) (hb4 : (⟨1, ![1]⟩ : Shape).ShapeCasts ⟨2, ![1, 1]⟩) :
    refTerm ea W1 b1 W2 b2 W3 b3 W4 b4
      = Cert.Mlp.out ea W1 b1 W2 b2 W3 b3 W4 b4 Facts₀.shapeCasts_S16000000x1_S500000x32 hb hb4 := by
  funext i
  obtain ⟨n, rfl⟩ : ∃ n : Fin 500000, i = ix1 n := ⟨i 0, eq_ix1 i⟩
  unfold refTerm
  rw [shapeCast_a1_a_apply, tail_apply, logitsT_eq ea W1 b1 W2 b2 W3 b3 W4 b4 hb hb4]
  rfl

end Ideal

/-! ## The run -/

/-- At the compiled mesh, over the extended reals, from any memory with zero counters: every weakly fair execution of the
    reference terminates with its result buffer at the specification of the launch contents of the nine arguments it
    reads, and every argument buffer unchanged. -/
theorem run (m : (ℓ : Loc nD τ sig) → Buf (Elt Ideal) ℓ) (ρ : Dev nD → PrngReg)
    (hb : (⟨1, ![256]⟩ : Shape).ShapeCasts ⟨2, ![1, 256]⟩) (hb4 : (⟨1, ![1]⟩ : Shape).ShapeCasts ⟨2, ![1, 1]⟩) :
    θ_run (defs (F := Ideal)) (onTc (τ := τ) (main (F := Ideal))) ⟨m, fun _ => 0, ρ⟩ fun r => ∀ c : Dev nD,
      r.2.mem ((c.tc : Thread nD τ).loc main_v21)
          = Cert.Mlp.out (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) Facts₀.shapeCasts_S16000000x1_S500000x32 hb hb4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v21).trans ((out_eq _).trans (refTerm_eq _ _ _ _ _ _ _ _ _ hb hb4)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_ops m ρ)

end Cert.ReferenceIdeal.RefValue

end
-- ==== Proof.lean ====
/-
  A four-layer perceptron over each node's 32 incoming edge attributes, followed by `log σ`: the kernel against its
  plain array reference, over the extended reals.

  Both programs regroup the `16000000` edge attributes as `500000` rows of `32` and apply, row by row, three layers
  `x ↦ tanh (x · W + b)`, the projection `h ↦ h · W4 + b4` to one logit per node, and `log σ` in the softplus form
  `-(max (-z) 0 + log (1 + exp (-|(-z) - 0|)))`: the function `Cert.Mlp.out` of the arguments (Proof/Spec.lean).

  The kernel computes it `4000` rows at a time.  Over the extended reals a change of float format is the identity, a
  matrix product into a zero accumulator is the plain sum of products, the last layer's multiply-by-a-row-and-sum-the-lanes
  is the dot product with the weight column, subtracting from zero is negating, and no number differs from itself, so the
  guard for "not a number" never fires: each block holds the results of its own rows (Proof/KernelBlock.lean), because
  every layer acts on each row alone.  The `125` blocks tile the output, and the final reshape puts node `n`'s result at
  position `n` (Proof/KernelValue.lean).  The reference is the same function spelt with whole-array operations
  (Proof/RefRun.lean, Proof/RefValue.lean).  No law of arithmetic beyond `0 - z = -z` is used, the two sides forming the
  same sums in the same order; in particular nothing needs the inputs to be finite.

  The idealized kernel is the kernel's own text read over the extended reals (no operation was rewritten), so `preserves`
  asks nothing.
-/
import proofs.«141119_j89137751261683_2_alg».proof.Defs
import proofs.«141119_j89137751261683_2_alg».proof.Proof.Gen.Kernel
import proofs.«141119_j89137751261683_2_alg».proof.Proof.Gen.Kernel.Skeleton
import proofs.«141119_j89137751261683_2_alg».proof.Proof.Gen.Kernel.Launch
import proofs.«141119_j89137751261683_2_alg».proof.Proof.Gen.Kernel.Points
import proofs.«141119_j89137751261683_2_alg».proof.Proof.Gen.Kernel.Frame
import proofs.«141119_j89137751261683_2_alg».proof.Proof.Gen.KernelIdeal
import proofs.«141119_j89137751261683_2_alg».proof.Proof.Gen.KernelIdeal.Skeleton
import proofs.«141119_j89137751261683_2_alg».proof.Proof.Gen.KernelIdeal.Launch
import proofs.«141119_j89137751261683_2_alg».proof.Proof.Gen.KernelIdeal.Points
import proofs.«141119_j89137751261683_2_alg».proof.Proof.Gen.KernelIdeal.Frame
import proofs.«141119_j89137751261683_2_alg».proof.Proof.Gen.ReferenceIdeal
import proofs.«141119_j89137751261683_2_alg».proof.Proof.Gen.Pre_finite_inputs
import proofs.«141119_j89137751261683_2_alg».proof.Proof.KernelValue
import proofs.«141119_j89137751261683_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2)
    (Cert.ReferenceIdeal.RefValue.run m ρ Cert.KernelIdeal.Gen.shapeCasts_S256_S1x256 Cert.KernelIdeal.Gen.shapeCasts_S1_S1x1)

/-- No operation of the kernel was rewritten for its reading over the extended reals. -/
theorem preserves : Cert.preserves_Kernel_KernelIdeal := trivial

/-- From memories agreeing on the arguments both programs end with every node's `log σ` of its logit: the kernel block by
    block, the reference in whole-array operations, one function of the arguments. -/
theorem algebraic : Cert.algebraic_KernelIdeal_ReferenceIdeal := by
  intro m ρ m' ρ' _ hagree
  refine ⟨fun c => Cert.KernelIdeal.KValue.outG m c, Cert.KernelIdeal.KValue.run m ρ, ?_⟩
  refine (θ_run Cert.ReferenceIdeal.defs _ _).mono (fun _ h c => ⟨(h c).1.trans ?_, (h c).2⟩)
    (Cert.ReferenceIdeal.RefValue.run m' ρ' Cert.KernelIdeal.Gen.shapeCasts_S256_S1x256 Cert.KernelIdeal.Gen.shapeCasts_S1_S1x1)
  obtain ⟨-, -, e2, e3, e4, e5, e6, e7, e8, e9, e10⟩ := hagree c
  rw [e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
